-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x2048x4096 .f32) (main_arg1 : FVec F S4096x4096 .f32) (main_arg2 : FVec F S4096 .f32) (main_arg3 : IVec S4096x4096 1) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x2048x4096 : Shape := ⟨3, ![2, 2048, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 11
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S4096x4096, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x4096, .f32⟩
  | .hbm, ⟨10, _⟩ => ⟨S2x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x2048x4096_S4096x4096 : S2x2048x4096.ShapeCasts S4096x4096
  shapeCasts_S4096_S1x4096 : S4096.ShapeCasts S1x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x4096_S2x2048x4096 : S4096x4096.ShapeCasts S2x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S4096x4096, .f32⟩
  | .hbm, ⟨5, _⟩ => ⟨S4096x4096, .f32⟩
  | .hbm, ⟨6, _⟩ => ⟨S2x2048x4096, .f32⟩
  | .hbm, ⟨7, _⟩ => ⟨S1x1x4096, .f32⟩
  | .hbm, ⟨8, _⟩ => ⟨S2x2048x4096, .f32⟩
  | .hbm, ⟨9, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Pieces.lean ====
/-
  What each of the body's three control cases leaves behind, as values.

  The contraction axis is the innermost grid axis, cut into four tiles. At the first tile the body resets its
  accumulator and adds the tile's product; at the two middle tiles it adds the tile's product to what the tile before
  left; at the last tile it does the same and then stores accumulator + bias row into the output block. Each statement
  below reads the covering store of a case back as the payload it wrote, over the blocks the case loaded. They hold
  for any float interpretation.
-/
import proofs.«174711_j17849884082261_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

/-- The offsets of every load and store of the body: the whole buffer, read from its origin. -/
theorem hz : (![0, 0] : Fin 2 → Nat) = fun _ => 0 := funext fun a => by fin_cases a <;> rfl

/-- At a middle step of the contraction (neither its first nor its last tile) the accumulator, holding `acc`, is
    left at `acc + x · wᵀ` of the step's two input blocks: the body's one covering store into it. -/
theorem scratch_B (c : Dev nD) (i : grid0.Coords) (a3 : Memref sig .tc .vmem S1024x1024 .f32) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x1024 .f32) (x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 x0 xs0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S1024x1024) hz]

/-- At the first tile of the contraction the accumulator is first reset to the zero block and then left at
    `0 + x · wᵀ`: the second store reads back what the first one wrote. -/
theorem scratch_A (c : Dev nD) (i : grid0.Coords) (a3 : Memref sig .tc .vmem S1024x1024 .f32) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x1024 .f32) (x1 : Vec F S1024x1024 .bf16) (x2 : Vec F S1x1024 .f32) :
    sout0_A_0 c i a3 h3 a4 h4 a5 h5 a6 h6 a7 h7 hc0 hc1 x0 x1 x2 = k0_pay2 x0 (k0_pay1 (F := F)) x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- At the last tile the accumulator is left at `acc + x · wᵀ` as at a middle step, -/
theorem scratch_C (c : Dev nD) (i : grid0.Coords) (a3 : Memref sig .tc .vmem S1024x1024 .f32) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x1024 .f32) (x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 x0 xs0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- and the output block is that accumulator, read back, plus the bias row added to every row. -/
theorem out_C (c : Dev nD) (i : grid0.Coords) (a3 : Memref sig .tc .vmem S1024x1024 .f32) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x1024 .f32) (x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 x0 xs0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words

  rw [View.canon_unit_zero hz]
  simp only [View.readAt_eq_ld, View.readCov_unit_zero (S := S1024x1024) _ hz, h3.read_unread, h4.read_unread, h5.read_unread, h7.read_unread,
    View.ld_unit_zero (S := S1024x1024) hz, View.ld_unit_zero (S := S1x1024) hz]

end Cert.KernelIdeal.Pieces
end
-- ==== Proof.LibDense.lean ====
/-
  The pieces of a dense layer, read one entry at a time, on the extended reals.

  * `mmT x w` is the product of `x : [M, K]` with the TRANSPOSE of `w : [N, K]`: entry (i, j) is the sum over k of
    x (i, k) · w (j, k). A contraction whose dimension numbers contract the second axis of both operands denotes
    exactly this sum (`sum_contr_eq_mmT`).
  * `biasRelu a b` adds the row `b : [1, K]` to every row of `a : [M, K]` and takes the maximum with a threshold `z`;
    `addRow a b` only adds the row.
-/
import Idealize.ShloMosaic.PureOps.Ideal.Laws
import Idealize.ShloMosaic.Lib.ValueIdx

noncomputable section

namespace Cert.LibDense

open Idealize.ShloMosaic Idealize.ShloMosaic.ValueIdx

/-- `x · wᵀ`: entry (i, j) is the sum over k of x (i, k) · w (j, k). -/
def mmT {M K N : Nat} (x : (⟨2, ![M, K]⟩ : Shape).Idx → EReal) (w : (⟨2, ![N, K]⟩ : Shape).Idx → EReal) :
    (⟨2, ![M, N]⟩ : Shape).Idx → EReal :=
  fun i => ∑ k : Fin K, x (ix2 (i 0) k) * w (ix2 (i 1) k)

/-- Row `b` added to every row of `a`, then the maximum with `z` entry by entry. -/
def biasRelu {M K : Nat} (z : EReal) (a : (⟨2, ![M, K]⟩ : Shape).Idx → EReal) (b : (⟨2, ![1, K]⟩ : Shape).Idx → EReal) :
    (⟨2, ![M, K]⟩ : Shape).Idx → EReal :=
  fun i => max (a i + b (ix2 (0 : Fin 1) (i 1))) z

/-- Row `b` added to every row of `a`. -/
def addRow {M K : Nat} (a : (⟨2, ![M, K]⟩ : Shape).Idx → EReal) (b : (⟨2, ![1, K]⟩ : Shape).Idx → EReal) :
    (⟨2, ![M, K]⟩ : Shape).Idx → EReal :=
  fun i => a i + b (ix2 (0 : Fin 1) (i 1))

/-- The sum over the index of a contraction of BOTH operands' second axes is `mmT`: the left operand is read along
    row `i 0`, the right operand along row `i 1`. The four hypotheses say which coordinate of the output index or of
    the contraction index each operand coordinate is. -/
theorem sum_contr_eq_mmT {M K N : Nat} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (l : (⟨2, ![M, K]⟩ : Shape).Idx → EReal) (r : (⟨2, ![N, K]⟩ : Shape).Idx → EReal) (i : (⟨2, ![M, N]⟩ : Shape).Idx) :
    ∑ q : D.contr.Idx, l (D.lhsIdx i q) * r (D.rhsIdx i q) = mmT l r i := by
  unfold mmT
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 (i 1) k := funext fun a => Fin.ext (by
    match a with
    | ⟨0, _⟩ => exact hr0 _ _
    | ⟨1, _⟩ => exact (hr1 _ _).trans hk)
  rw [el, er]
  rfl

end Cert.LibDense

end
-- ==== Proof.Payloads.lean ====
/-
  The body's three payloads read at one entry, on the extended reals.

  * the reset block is zero at every entry;
  * the accumulation step leaves `acc (p, q) + Σ_k x (p, k) · w (q, k)`: the product of the x block with the
    TRANSPOSE of the weight block (both operands are contracted along their second axis), the two changes of float
    format being the identity on the extended reals;
  * the last step adds the bias row to every row: `acc (p, q) + b (0, q)`.
-/
import proofs.«174711_j17849884082261_2_alg».proof.Proof.Gen.KernelIdeal.Skeleton
import proofs.«174711_j17849884082261_2_alg».proof.Proof.LibDense
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payloads
open Cert.KernelIdeal Cert.KernelIdeal.Gen Cert.LibDense

/-! ### Which coordinate of the output entry or of the contraction index each operand coordinate of the tile product is -/

theorem lhs0 (i : S1024x1024.Idx) (q : dot_S1024x1024_S1024x1024_S1024x1024_1_1_0_0_n_n.contr.Idx) : (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs1 (i : S1024x1024.Idx) (q : dot_S1024x1024_S1024x1024_S1024x1024_1_1_0_0_n_n.contr.Idx) : (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs0 (i : S1024x1024.Idx) (q : dot_S1024x1024_S1024x1024_S1024x1024_1_1_0_0_n_n.contr.Idx) : (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs1 (i : S1024x1024.Idx) (q : dot_S1024x1024_S1024x1024_S1024x1024_1_1_0_0_n_n.contr.Idx) : (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The reset block is zero everywhere. -/
theorem pay1_apply (j : S1024x1024.Idx) : k0_pay1 (F := Ideal) j = 0 := by
  unfold k0_pay1
  rw [shapeCast_self]
  show Ideal.ofBits .f32 0x00000000#32 = 0
  exact Ideal.ofBits_zero_f32

/-- One accumulation step at an entry: what the accumulator held there plus the entry of `x · wᵀ`. -/
theorem pay2_apply (x acc : Vec Ideal S1024x1024 .f32) (w : Vec Ideal S1024x1024 .bf16) (p q : Fin 1024) :
    k0_pay2 (F := Ideal) x acc w (ix2 p q) = acc (ix2 p q) + ∑ k : Fin 1024, x (ix2 p k) * w (ix2 q k) := by
  unfold k0_pay2
  rw [shapeCast_self, shapeCast_self, shapeCast_self, addf_apply]
  refine congrArg (acc (ix2 p q) + ·) ?_
  refine (Ideal.matmul_constant_zero_apply dot_S1024x1024_S1024x1024_S1024x1024_1_1_0_0_n_n none (truncf .bf16 x bitsLt_bf16_f32) w (ix2 p q)).trans ?_
  exact sum_contr_eq_mmT (M := 1024) (K := 1024) (N := 1024) dot_S1024x1024_S1024x1024_S1024x1024_1_1_0_0_n_n rfl rfl lhs0 lhs1 rhs0 rhs1
    (x : S1024x1024.Idx → EReal) (w : S1024x1024.Idx → EReal) (ix2 p q)

/-- The last step at an entry: the accumulator there plus the bias row's entry in the same column. -/
theorem pay3_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  rw [shapeCast_self, addf_apply]
  refine congrArg (acc (ix2 p q) + ·) ?_
  exact broadcastTo_apply b broadcasts_S1x1024_S1024x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])

end Cert.KernelIdeal.Payloads
end
-- ==== Proof.Accum.lean ====
/-
  The accumulator over the four contraction tiles, and the block the last tile stores.

  The accumulator is carried between grid points. Along a run of four points sharing a row tile and a column tile it
  is reset at the first point (contraction tile 0) and each later point adds its own tile product to what the point
  before left. So after the point with contraction tile `j` it holds, at entry (p, q),
  `0 + Σ_{s ≤ j} Σ_k x_s (p, k) · w_s (q, k)`, the products of the run's first `j + 1` pairs of blocks; at the last tile
  the output block is that plus the bias row.
-/
import proofs.«174711_j17849884082261_2_alg».proof.Proof.Pieces
import proofs.«174711_j17849884082261_2_alg».proof.Proof.Payloads
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum
open Cert.KernelIdeal Cert.KernelIdeal.Gen Cert.KernelIdeal.Pieces Cert.KernelIdeal.Payloads

variable (m : (ℓ : Loc nD τ sig) → Buf (Elt Ideal) ℓ)

/-- One accumulation step at point `n`: the payload over that point's x block and weight block. -/
def stepAt (c : Dev nD) (n : ℕ) (h : n < cfg0.N) (acc : Vec Ideal S1024x1024 .f32) : Vec Ideal S1024x1024 .f32 :=
  k0_pay2 (F := Ideal) (iblk m c 0 ⟨n, h⟩) acc (iblk m c 1 ⟨n, h⟩)

/-- Row `p` of an x block against row `q` of a weight block. -/
def tileOf (x : Vec Ideal S1024x1024 .f32) (w : Vec Ideal S1024x1024 .bf16) (p q : Fin 1024) : EReal :=
  ∑ k : Fin 1024, x (ix2 p k) * w (ix2 q k)

/-- Point `n`'s tile product at entry (p, q): row `p` of its x block against row `q` of its weight block
    (zero past the grid, where it is never used). -/
def tile (c : Dev nD) (n : ℕ) (p q : Fin 1024) : EReal :=
  if h : n < cfg0.N then tileOf (iblk m c 0 ⟨n, h⟩) (iblk m c 1 ⟨n, h⟩) p q else 0

/-- A step at an entry adds the point's tile product to what the accumulator held there. -/
theorem stepAt_apply (c : Dev nD) (n : ℕ) (h : n < cfg0.N) (acc : Vec Ideal S1024x1024 .f32) (p q : Fin 1024) :
    stepAt m c n h acc (ix2 p q) = acc (ix2 p q) + tile m c n p q := by
  unfold stepAt tile tileOf
  rw [dif_pos h]
  exact pay2_apply (iblk m c 0 ⟨n, h⟩) acc (iblk m c 1 ⟨n, h⟩) p q

/-- At a point whose contraction tile is the first, the accumulator is left at one step from the zero block. -/
theorem scratch_reset (c : Dev nD) (n : ℕ) (h : n < cfg0.N) (hn : n % 4 = 0) :
    (outsAt0 m c n h).2 = stepAt m c n h (k0_pay1 (F := Ideal)) := by
  have h1 : ¬ n % 4 = 3 := by omega
  unfold stepAt
  rw [outsAt0_A m c ⟨n, h⟩ hn h1]
  dsimp only
  exact scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr hn) (fun hh => h1 ((hcond0_1 ⟨n, h⟩).mp hh)) (iblk m c 0 ⟨n, h⟩) (iblk m c 1 ⟨n, h⟩) (iblk m c 2 ⟨n, h⟩)

/-- At every other point it is left at one step from what the point before left. -/
theorem scratch_step (c : Dev nD) (n : ℕ) (h : n + 1 < cfg0.N) (hn : ¬(n + 1) % 4 = 0) :
    (outsAt0 m c (n + 1) h).2 = stepAt m c (n + 1) h ((outsAt0 m c n (Nat.lt_of_succ_lt h)).2) := by
  unfold stepAt
  by_cases h3 : (n + 1) % 4 = 3
  · rw [outsAt0_C m c ⟨n + 1, h⟩ hn h3]
    dsimp only
    exact scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => hn ((hcond0_0 ⟨n + 1, h⟩).mp hh)) ((hcond0_1 ⟨n + 1, h⟩).mpr h3) (iblk m c 0 ⟨n + 1, h⟩) (iblk m c 1 ⟨n + 1, h⟩) (iblk m c 2 ⟨n + 1, h⟩) ((outsAt0 m c n (Nat.lt_of_succ_lt h)).2)
  · rw [outsAt0_B m c ⟨n + 1, h⟩ hn h3]
    dsimp only
    exact scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => hn ((hcond0_0 ⟨n + 1, h⟩).mp hh)) (fun hh => h3 ((hcond0_1 ⟨n + 1, h⟩).mp hh)) (iblk m c 0 ⟨n + 1, h⟩) (iblk m c 1 ⟨n + 1, h⟩) (iblk m c 2 ⟨n + 1, h⟩) ((outsAt0 m c n (Nat.lt_of_succ_lt h)).2)

/-- The accumulator after point `t`, at an entry: zero plus the tile products of the points of `t`'s run up to `t`. -/
theorem scratch_apply (c : Dev nD) (t : ℕ) (ht : t < cfg0.N) (p q : Fin 1024) :
    (outsAt0 m c t ht).2 (ix2 p q) = 0 + ∑ s ∈ Finset.range (t % 4 + 1), tile m c (4 * (t / 4) + s) p q := by
  have hN : cfg0.N = 64 := N_0
  have h' : 4 * (t / 4) + t % 4 < cfg0.N := by omega
  have e := Pipeline.eq_accAt_of_mod (fun n h => (outsAt0 m c n h).2) 4
    (fun n h => stepAt m c n h (k0_pay1 (F := Ideal))) (fun n h acc => stepAt m c n h acc)
    (fun n h hn => scratch_reset m c n h hn) (fun n h hn => scratch_step m c n h hn) (by decide) t ht h'
  refine (congrFun e (ix2 p q)).trans ?_
  exact Pipeline.accAt_add_apply (fun n h => stepAt m c n h (k0_pay1 (F := Ideal))) (fun n h acc => stepAt m c n h acc)
    (fun _ => (0 : EReal)) (fun n (i : S1024x1024.Idx) => tile m c n (i 0) (i 1)) (4 * (t / 4)) 3
    (fun h i => by
      obtain ⟨p, q, rfl⟩ : ∃ (p q : Fin 1024), i = ix2 p q := ⟨i 0, i 1, eq_ix2 i⟩
      exact (stepAt_apply m c _ h _ p q).trans (congrArg (· + tile m c _ p q) (pay1_apply (ix2 p q))))
    (fun n h acc i _ _ => by
      obtain ⟨p, q, rfl⟩ : ∃ (p q : Fin 1024), i = ix2 p q := ⟨i 0, i 1, eq_ix2 i⟩
      exact stepAt_apply m c n h acc p q)
    (t % 4) (by omega) h' (ix2 p q)

/-- At a point whose contraction tile is the last, the output block is the bias step over the accumulator that
    point leaves. -/
theorem out_eq (c : Dev nD) (t : Fin cfg0.N) (h3 : t.val % 4 = 3) :
    (outsAt0 m c t.val t.isLt).1 = k0_pay3 (F := Ideal) ((outsAt0 m c t.val t.isLt).2) (iblk m c 2 t) := by
  have h0 : ¬ t.val % 4 = 0 := by omega
  rw [outsAt0_C m c t h0 h3]
  dsimp only
  rw [scratch_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h3) (iblk m c 0 t) (iblk m c 1 t) (iblk m c 2 t) ((outsAt0 m c (t.val - 1) (Nat.lt_of_le_of_lt (Nat.sub_le _ _) t.isLt)).2)]
  exact out_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h3) (iblk m c 0 t) (iblk m c 1 t) (iblk m c 2 t) ((outsAt0 m c (t.val - 1) (Nat.lt_of_le_of_lt (Nat.sub_le _ _) t.isLt)).2)

/-- So the stored output block, at an entry, is zero plus the run's four tile products plus the bias entry. -/
theorem out_apply (c : Dev nD) (t : Fin cfg0.N) (h3 : t.val % 4 = 3) (p q : Fin 1024) :
    (outsAt0 m c t.val t.isLt).1 (ix2 p q)
      = (0 + ∑ s ∈ Finset.range 4, tile m c (4 * (t.val / 4) + s) p q) + (iblk m c 2 t : Vec Ideal S1x1024 .f32) (ix2 (0 : Fin 1) q) := by
  refine (congrFun (out_eq m c t h3) (ix2 p q)).trans ?_
  refine (pay3_apply ((outsAt0 m c t.val t.isLt).2) (iblk m c 2 t) p q).trans ?_
  refine congrArg (· + (iblk m c 2 t : Vec Ideal S1x1024 .f32) (ix2 (0 : Fin 1) q)) ?_
  have e := scratch_apply m c t.val t.isLt p q
  rw [h3] at e
  exact e

end Cert.KernelIdeal.Accum
end
-- ==== Proof.Blocks.lean ====
/-
  What the launch finds and what a grid point reads.

  Before the launch the host flattens x to [4096, 4096] (row `b * 2048 + s`), lays the bias out as a [1, 4096] row,
  and forms the masked weight `weight * float(mask)`, narrowed to bf16. The 64 grid points are numbered with the
  contraction tile fastest: point `t` is row tile `t / 16`, column tile `t / 4 % 4`, contraction tile `t % 4`.
  At point `t` the body sees rows `t / 16 * 1024 + p` and columns `t % 4 * 1024 + k` of the flattened x, rows
  `t / 4 % 4 * 1024 + q` and the same columns of the masked weight, and columns `t / 4 % 4 * 1024 + q` of the bias row.
-/
import proofs.«174711_j17849884082261_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks
open Cert.KernelIdeal Cert.KernelIdeal.Gen
variable {F : FTy → Type} [FloatOps F]
variable (m : (ℓ : Loc nD τ sig) → Buf (Elt F) ℓ)

/-! ### The three arrays the launch reads, as the host lines before it leave them -/

/-- The first operand is x flattened to two axes. -/
theorem V_v0 (c : Dev nD) : (V m c main_v0 : S4096x4096.Idx → Elt F .f32) = shapeCast S4096x4096 (m ((c : Thread nD τ).loc main_arg0)) shapeCasts_S2x2048x4096_S4096x4096 := by
  show StableHlo.after hostOps0 (fun b => m (c, b)) (Proc.devRef .tc main_v0) = _
  after_results
  rfl

/-- The third operand is the bias as a one-row matrix. -/
theorem V_v1 (c : Dev nD) : (V m c main_v1 : S1x4096.Idx → Elt F .f32) = shapeCast S1x4096 (m ((c : Thread nD τ).loc main_arg2)) shapeCasts_S4096_S1x4096 := by
  show StableHlo.after hostOps0 (fun b => m (c, b)) (Proc.devRef .tc main_v1) = _
  after_results
  rfl

/-- The second operand is the masked weight, narrowed. -/
theorem V_v4 (c : Dev nD) : (V m c main_v4 : S4096x4096.Idx → Elt F .bf16) = truncf .bf16 (mulf (m ((c : Thread nD τ).loc main_arg1)) (uitofp .f32 (m ((c : Thread nD τ).loc main_arg3)))) bitsLt_bf16_f32 := by
  show StableHlo.after hostOps0 (fun b => m (c, b)) (Proc.devRef .tc main_v4) = _
  after_results

/-! ### Where each window's block sits at a grid point (the printed index maps, decided over the 64 points) -/

theorem idx0 : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem idx1 : ∀ t : Fin cfg0.N, win0_1.index t 0 = t.val / 4 % 4 ∧ win0_1.index t 1 = t.val % 4 :=
  (by decide +kernel : ∀ t : Fin grid0.N, win0_1.index t 0 = t.val / 4 % 4 ∧ win0_1.index t 1 = t.val % 4)
theorem idx2 : ∀ t : Fin cfg0.N, win0_2.index t 0 = 0 ∧ win0_2.index t 1 = t.val / 4 % 4 :=
  (by decide +kernel : ∀ t : Fin grid0.N, win0_2.index t 0 = 0 ∧ win0_2.index t 1 = t.val / 4 % 4)
theorem idx3 : ∀ t : Fin cfg0.N, win0_3.index t 0 = t.val / 16 ∧ win0_3.index t 1 = t.val / 4 % 4 :=
  (by decide +kernel : ∀ t : Fin grid0.N, win0_3.index t 0 = t.val / 16 ∧ win0_3.index t 1 = t.val / 4 % 4)

/-! ### A block read at an entry is the array read at the block's offset plus the entry -/

theorem iblk0_apply (c : Dev nD) (t : Fin cfg0.N) (p k : Fin 1024) (r d : Fin 4096)
    (hr : r.val = t.val / 16 * 1024 + p.val) (hd : d.val = t.val % 4 * 1024 + k.val) :
    (iblk m c 0 t : Vec F S1024x1024 .f32) (ix2 p k) = (V m c main_v0 : S4096x4096.Idx → Elt F .f32) (ix2 r d) := by
  have hi := idx0 t
  unfold iblk
  rw [View.read_apply]
  show V m c main_v0 _ = V m c main_v0 _
  congr 1
  funext a
  apply Fin.ext
  match a with
  | ⟨0, _⟩ => show win0_0.index t 0 * 1024 + 1 * p.val = r.val; rw [hi.1, hr]; omega
  | ⟨1, _⟩ => show win0_0.index t 1 * 1024 + 1 * k.val = d.val; rw [hi.2, hd]; omega

theorem iblk1_apply (c : Dev nD) (t : Fin cfg0.N) (q k : Fin 1024) (o d : Fin 4096)
    (ho : o.val = t.val / 4 % 4 * 1024 + q.val) (hd : d.val = t.val % 4 * 1024 + k.val) :
    (iblk m c 1 t : Vec F S1024x1024 .bf16) (ix2 q k) = (V m c main_v4 : S4096x4096.Idx → Elt F .bf16) (ix2 o d) := by
  have hi := idx1 t
  unfold iblk
  rw [View.read_apply]
  show V m c main_v4 _ = V m c main_v4 _
  congr 1
  funext a
  apply Fin.ext
  match a with
  | ⟨0, _⟩ => show win0_1.index t 0 * 1024 + 1 * q.val = o.val; rw [hi.1, ho]; omega
  | ⟨1, _⟩ => show win0_1.index t 1 * 1024 + 1 * k.val = d.val; rw [hi.2, hd]; omega

theorem iblk2_apply (c : Dev nD) (t : Fin cfg0.N) (q : Fin 1024) (o : Fin 4096)
    (ho : o.val = t.val / 4 % 4 * 1024 + q.val) :
    (iblk m c 2 t : Vec F S1x1024 .f32) (ix2 (0 : Fin 1) q) = (V m c main_v1 : S1x4096.Idx → Elt F .f32) (ix2 (0 : Fin 1) o) := by
  have hi := idx2 t
  unfold iblk
  rw [View.read_apply]
  show V m c main_v1 _ = V m c main_v1 _
  congr 1
  funext a
  apply Fin.ext
  match a with
  | ⟨0, _⟩ => show win0_2.index t 0 * 1 + 1 * 0 = 0; rw [hi.1]
  | ⟨1, _⟩ => show win0_2.index t 1 * 1024 + 1 * q.val = o.val; rw [hi.2, ho]; omega

end Cert.KernelIdeal.Blocks
end
-- ==== Proof.SumTiles.lean ====
/-
  A sum over the 4096 places of a contraction, cut into four consecutive runs of 1024 places: the place
  `kb * 1024 + k` is the `k`-th place of run `kb`. Only the commutative-monoid structure of the summands is used,
  so the statement holds on the extended reals with no finiteness assumption: regrouping a sum never meets the
  failure of distributivity or cancellation at the infinities.
-/
import Mathlib.Algebra.BigOperators.Fin
import Mathlib.Algebra.BigOperators.Intervals
import Mathlib.Logic.Equiv.Fin.Basic

namespace Cert.SumTiles

open Finset

/-- The place `kb * 1024 + k` of run `kb`. -/
def place (kb : Fin 4) (k : Fin 1024) : Fin 4096 := ⟨kb.val * 1024 + k.val, by omega⟩

theorem place_val (kb : Fin 4) (k : Fin 1024) : (place kb k).val = kb.val * 1024 + k.val := rfl

/-- The sum over all 4096 places is the sum over the four runs of the sums over each run's 1024 places:
    `(kb, k) ↦ kb * 1024 + k` is a bijection from pairs to places. -/
theorem sum_place {M : Type*} [AddCommMonoid M] (f : Fin 4096 → M) :
    ∑ d : Fin 4096, f d = ∑ kb : Fin 4, ∑ k : Fin 1024, f (place kb k) := by
  rw [← Fintype.sum_prod_type']
  refine (Fintype.sum_equiv (finProdFinEquiv (m := 4) (n := 1024)) (fun x => f (place x.1 x.2)) f (fun x => ?_)).symm
  refine congrArg f (Fin.ext ?_)
  show x.1.val * 1024 + x.2.val = x.2.val + 1024 * x.1.val
  omega

/-- A sum over the first four naturals is the sum over `Fin 4`. -/
theorem sum_range_four {M : Type*} [AddCommMonoid M] (g : Nat → M) :
    ∑ s ∈ Finset.range 4, g s = ∑ kb : Fin 4, g kb.val := Finset.sum_range g

end Cert.SumTiles
-- ==== Proof.Spec.lean ====
/-
  The layer both programs compute, entry by entry on the extended reals:

      y[b, s, o] = Σ_d x[b, s, d] · wm[o, d] + bias[o]        (b < 2, s < 2048, o, d < 4096)

  where `wm = weight · float(mask)` is the masked weight, the same term of the arguments in both programs.
-/
import Idealize.ShloMosaic.PureOps.Ideal
import Idealize.ShloMosaic.Lib.ValueIdx

noncomputable section

open Idealize.ShloMosaic Idealize.ShloMosaic.ValueIdx

namespace Cert.Spec

/-- One entry of the layer's output. -/
def y (x : (⟨3, ![2, 2048, 4096]⟩ : Shape).Idx → EReal) (wm : (⟨2, ![4096, 4096]⟩ : Shape).Idx → EReal)
    (bias : (⟨1, ![4096]⟩ : Shape).Idx → EReal) (b : Fin 2) (s : Fin 2048) (o : Fin 4096) : EReal :=
  (∑ d : Fin 4096, x (ix3 b s d) * wm (ix2 o d)) + bias (ix1 o)

/-- The layer's whole output. -/
def Y (x : (⟨3, ![2, 2048, 4096]⟩ : Shape).Idx → EReal) (wm : (⟨2, ![4096, 4096]⟩ : Shape).Idx → EReal)
    (bias : (⟨1, ![4096]⟩ : Shape).Idx → EReal) : (⟨3, ![2, 2048, 4096]⟩ : Shape).Idx → EReal :=
  fun i => y x wm bias (i 0) (i 1) (i 2)

end Cert.Spec
end
-- ==== Proof.KernelValue.lean ====
/-
  The kernel's result array as one function of the arrays the launch reads.

  Entry (r, o) of the launch's [4096, 4096] result is `Σ_d X (r, d) · W (o, d) + B (0, o)`, where X is the flattened x,
  W the masked weight and B the bias row. Row `r` and column `o` lie in one output block, written back once, by the
  grid point with row tile `r / 1024`, column tile `o / 1024` and the LAST contraction tile; what that point stores
  is zero plus its run's four tile products plus the bias, and the four tile products are the four runs of 1024 places
  of the full sum over d. The host then reshapes the result to [2, 2048, 4096].
-/
import proofs.«174711_j17849884082261_2_alg».proof.Proof.Accum
import proofs.«174711_j17849884082261_2_alg».proof.Proof.Blocks
import proofs.«174711_j17849884082261_2_alg».proof.Proof.SumTiles
import proofs.«174711_j17849884082261_2_alg».proof.Proof.Spec
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue
open Cert.KernelIdeal Cert.KernelIdeal.Gen Cert.KernelIdeal.Accum Cert.KernelIdeal.Blocks Cert.SumTiles

/-- Entry (r, o) of the launch's result from the three arrays it reads. -/
def entry (X : Vec Ideal S4096x4096 .f32) (W : Vec Ideal S4096x4096 .bf16) (B : Vec Ideal S1x4096 .f32) (r o : Fin 4096) : EReal :=
  (∑ d : Fin 4096, X (ix2 r d) * W (ix2 o d)) + B (ix2 (0 : Fin 1) o)

/-- The launch's whole result array. -/
def result2 (X : Vec Ideal S4096x4096 .f32) (W : Vec Ideal S4096x4096 .bf16) (B : Vec Ideal S1x4096 .f32) : Vec Ideal S4096x4096 .f32 :=
  fun i => entry X W B (i 0) (i 1)

/-- Row `r` of X against row `o` of W over run `kb` of the contraction's places. -/
def rowDot (X : Vec Ideal S4096x4096 .f32) (W : Vec Ideal S4096x4096 .bf16) (r o : Fin 4096) (kb : Fin 4) : EReal :=
  ∑ k : Fin 1024, X (ix2 r (place kb k)) * W (ix2 o (place kb k))

/-- A block product whose operands are read from X and W at run `kb` is that run's part of the row product. -/
theorem tileOf_congr (x : Vec Ideal S1024x1024 .f32) (w : Vec Ideal S1024x1024 .bf16)
    (X : Vec Ideal S4096x4096 .f32) (W : Vec Ideal S4096x4096 .bf16) (r o : Fin 4096) (kb : Fin 4) (p q : Fin 1024)
    (hx : ∀ k : Fin 1024, x (ix2 p k) = X (ix2 r (place kb k))) (hw : ∀ k : Fin 1024, w (ix2 q k) = W (ix2 o (place kb k))) :
    tileOf x w p q = rowDot X W r o kb := by
  unfold tileOf rowDot
  exact Finset.sum_congr rfl fun k _ => by rw [hx k, hw k]

/-- The full row product is the sum of its four runs. -/
theorem entry_eq (X : Vec Ideal S4096x4096 .f32) (W : Vec Ideal S4096x4096 .bf16) (B : Vec Ideal S1x4096 .f32) (r o : Fin 4096) :
    entry X W B r o = (∑ kb : Fin 4, rowDot X W r o kb) + B (ix2 (0 : Fin 1) o) := by
  unfold entry rowDot
  rw [sum_place]

variable (m : (ℓ : Loc nD τ sig) → Buf (Elt Ideal) ℓ) (ρ : Dev nD → PrngReg)

/-- The tile product of the `kb`-th point of `t`'s run, at entry (p, q) of the block, is the sum over run `kb` of the
    1024-place runs of the contraction, at row `r` of X and row `o` of W. -/
theorem tile_eq (c : Dev nD) (t : Fin cfg0.N) (kb : Fin 4) (p q : Fin 1024) (r o : Fin 4096)
    (hr : r.val = t.val / 16 * 1024 + p.val) (ho : o.val = t.val / 4 % 4 * 1024 + q.val) :
    tile m c (4 * (t.val / 4) + kb.val) p q = rowDot (V m c main_v0) (V m c main_v4) r o kb := by
  have hN : cfg0.N = 64 := N_0
  have ht := t.isLt
  have hkb := kb.isLt
  have hu : 4 * (t.val / 4) + kb.val < cfg0.N := by omega
  unfold tile
  rw [dif_pos hu]
  exact tileOf_congr (iblk m c 0 ⟨4 * (t.val / 4) + kb.val, hu⟩) (iblk m c 1 ⟨4 * (t.val / 4) + kb.val, hu⟩) (V m c main_v0) (V m c main_v4) r o kb p q
    (fun k => iblk0_apply m c ⟨4 * (t.val / 4) + kb.val, hu⟩ p k r (place kb k) (by show r.val = (4 * (t.val / 4) + kb.val) / 16 * 1024 + p.val; omega)
      (by show kb.val * 1024 + k.val = (4 * (t.val / 4) + kb.val) % 4 * 1024 + k.val; omega))
    (fun k => iblk1_apply m c ⟨4 * (t.val / 4) + kb.val, hu⟩ q k o (place kb k) (by show o.val = (4 * (t.val / 4) + kb.val) / 4 % 4 * 1024 + q.val; omega)
      (by show kb.val * 1024 + k.val = (4 * (t.val / 4) + kb.val) % 4 * 1024 + k.val; omega))

/-- What the last point of a run stores at entry (p, q) of its block is entry (r, o) of the result. -/
theorem block_entry (c : Dev nD) (t : Fin cfg0.N) (h3 : t.val % 4 = 3) (p q : Fin 1024) (r o : Fin 4096)
    (hr : r.val = t.val / 16 * 1024 + p.val) (ho : o.val = t.val / 4 % 4 * 1024 + q.val) :
    (outsAt0 m c t.val t.isLt).1 (ix2 p q) = entry (V m c main_v0) (V m c main_v4) (V m c main_v1) r o := by
  refine (out_apply m c t h3 p q).trans ?_
  rw [entry_eq, zero_add, sum_range_four]
  exact congrArg₂ (· + ·) (Finset.sum_congr rfl fun kb _ => tile_eq m c t kb p q r o hr ho) (iblk2_apply m c t q o ho)

/-- What a point writes back is its block of the result. -/
theorem flushed_eq (c : Dev nD) (t : Fin cfg0.N) (hf : (cfg0.win 3).flush t = true) :
    (dats m 0 c).flushed 3 t = ((cfg0.win 3).blk t).view.read (Elt Ideal) (result2 (V m c main_v0) (V m c main_v4) (V m c main_v1)) := by
  have h3 : t.val % 4 = 3 := (flush0_3 t).mp hf
  have hi := idx3 t
  show (cfg0.win 3).cut (grid0.coords t) ((dats m 0 c).after 3 t) = _
  rw [after0_3]
  funext j
  obtain ⟨p, q, rfl⟩ : ∃ (p q : Fin 1024), j = ix2 p q := ⟨j 0, j 1, eq_ix2 j⟩
  rw [View.read_apply]
  exact block_entry m c t h3 p q _ _
    (by show win0_3.index t 0 * 1024 + 1 * p.val = t.val / 16 * 1024 + p.val; rw [hi.1]; omega)
    (by show win0_3.index t 1 * 1024 + 1 * q.val = t.val / 4 % 4 * 1024 + q.val; rw [hi.2]; omega)

/-- Every entry of the result lies in the block of some point that writes back: the one with the entry's row tile,
    its column tile and the last contraction tile. -/
theorem cover (c : Dev nD) (i : S4096x4096.Idx) :
    ∃ t : Fin cfg0.N, (cfg0.win 3).flush t = true ∧ i ∈ ((cfg0.win 3).blk t).view.set := by
  have hN : cfg0.N = 64 := N_0
  have h0 : (i 0).val < 4096 := (i 0).isLt
  have h1 : (i 1).val < 4096 := (i 1).isLt
  obtain ⟨t, ht⟩ : ∃ t : Fin cfg0.N, t.val = 16 * ((i 0).val / 1024) + 4 * ((i 1).val / 1024) + 3 := ⟨⟨_, by omega⟩, rfl⟩
  refine ⟨t, (flush0_3 t).mpr (by rw [ht]; omega), ?_⟩
  have hi := idx3 t
  show i ∈ ((View.whole main_v5).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [hi.1, ht]; omega
  | ⟨1, _⟩ =>
    show win0_3.index t 1 * 1024 ≤ (i 1).val ∧ (i 1).val < win0_3.index t 1 * 1024 + 1024
    rw [hi.2, ht]; omega

/-- So the launch's result array ends holding the result. -/
theorem final3 (c : Dev nD) : (dats m 0 c).arrAt 3 cfg0.N = result2 (V m c main_v0) (V m c main_v4) (V m c main_v1) :=
  (dats m 0 c).arrAt_eq_of_cover 3 (result2 (V m c main_v0) (V m c main_v4) (V m c main_v1)) (fun t hf => flushed_eq m c t hf) (cover c)

/-- The host line after the launch reshapes it to three axes. -/
theorem tail_eq (c : Dev nD) :
    Pipeline.afterTail₀ cfgs (dats m) 0 (V0 m) [hostOps1] c main_v6
      = shapeCast S2x2048x4096 (result2 (V m c main_v0) (V m c main_v4) (V m c main_v1)) shapeCasts_S4096x4096_S2x2048x4096 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = result2 (V m c main_v0) (V m c main_v4) (V m c main_v1) :=
    (Pipeline.withArrays_arr spec0 launch0.win.arr_inj c _ _ 3).trans (final3 m c)
  rw [e]
  rfl

/-! ### The result in terms of the arguments -/

/-- The launch's result over the flattened x, the narrowed masked weight and the bias row, reshaped to three axes, is
    the layer: flattening puts x[b, s, ·] in row `b * 2048 + s`, and the reshape back reads that row. -/
theorem kernel_eq (x : FVec Ideal S2x2048x4096 .f32) (wm : FVec Ideal S4096x4096 .f32) (bias : FVec Ideal S4096 .f32) :
    shapeCast S2x2048x4096 (result2 (shapeCast S4096x4096 x shapeCasts_S2x2048x4096_S4096x4096) (truncf (F := Ideal) .bf16 wm bitsLt_bf16_f32 : FVec Ideal S4096x4096 .bf16) (shapeCast S1x4096 bias shapeCasts_S4096_S1x4096)) shapeCasts_S4096x4096_S2x2048x4096
      = Cert.Spec.Y x wm bias := by
  funext i
  obtain ⟨b, s, o, rfl⟩ : ∃ (b : Fin 2) (s : Fin 2048) (o : Fin 4096), i = ix3 b s o := ⟨i 0, i 1, i 2, eq_ix3 i⟩
  have hb := b.isLt
  have hs := s.isLt
  obtain ⟨r, hr⟩ : ∃ r : Fin 4096, r.val = b.val * 2048 + s.val := ⟨⟨_, by omega⟩, rfl⟩
  rw [shapeCast_apply _ shapeCasts_S4096x4096_S2x2048x4096 (ix3 b s o) (ix2 r o) (by
    rw [Shape.rowMajor_val_two, Shape.rowMajor_val_three]
    show r.val * 4096 + o.val = (b.val * 2048 + s.val) * 4096 + o.val
    rw [hr])]
  show entry _ _ _ r o = Cert.Spec.y x wm bias b s o
  unfold entry Cert.Spec.y
  refine congrArg₂ (· + ·) (Finset.sum_congr rfl fun d _ => ?_) ?_
  · rw [shapeCast_apply x shapeCasts_S2x2048x4096_S4096x4096 (ix2 r d) (ix3 b s d) (by
      rw [Shape.rowMajor_val_two, Shape.rowMajor_val_three]
      show (b.val * 2048 + s.val) * 4096 + d.val = r.val * 4096 + d.val
      rw [hr])]
    rfl
  · exact shapeCast_apply bias shapeCasts_S4096_S1x4096 (ix2 (0 : Fin 1) o) (ix1 o) (by
      rw [Shape.rowMajor_val_one, Shape.rowMajor_val_two]
      show o.val = 0 * 4096 + o.val
      omega)

/-- The run, read: every weakly fair execution ends with the result buffer at the layer of the arguments, the
    arguments unchanged. -/
theorem run : θ_run defs (onTc (τ := τ) (main (F := Ideal))) ⟨m, fun _ => 0, ρ⟩ fun r => ∀ c : Dev nD,
      r.2.mem ((c.tc : Thread nD τ).loc main_v6) = Cert.Spec.Y (m ((c.tc : Thread nD τ).loc main_arg0)) (mulf (F := Ideal) (m ((c.tc : Thread nD τ).loc main_arg1)) (uitofp (F := Ideal) .f32 (m ((c.tc : Thread nD τ).loc main_arg3))) : FVec Ideal S4096x4096 .f32) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v6 (Pipeline.mem_restRefs_of main_v6 (by decide) (by decide))).trans (tail_eq m c)).trans (by
        rw [V_v0, V_v4, V_v1]
        exact kernel_eq _ _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue
end
-- ==== Proof.RefValue.lean ====
/-
  The reference computes the layer: its contraction of x's last axis with the masked weight's last axis is the sum
  over d, and its two broadcasts of the bias read the bias at the output's last coordinate.
-/
import proofs.«174711_j17849884082261_2_alg».proof.Proof.Gen.ReferenceIdeal.Read
import proofs.«174711_j17849884082261_2_alg».proof.Proof.Spec

noncomputable section

open Idealize.ShloMosaic Idealize.ShloMosaic.ValueIdx

namespace Cert.ReferenceIdeal.RefValue
open Cert.ReferenceIdeal Cert.ReferenceIdeal.Gen Cert.ReferenceIdeal.Read Cert.Spec

/-- The reference's last stage is the layer over the masked weight it forms. -/
theorem ref_eq (x0 : (⟨S2x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .i1⟩ : BufTy).Contents (Elt Ideal)) :
    val_main_v5 (F := Ideal) x0 x1 x2 x3 = Y x0 (val_main_v1 (F := Ideal) x1 x3) x2 := by
  funext i
  obtain ⟨b, s, o, rfl⟩ : ∃ (b : Fin 2) (s : Fin 2048) (o : Fin 4096), i = ix3 b s o := ⟨i 0, i 1, i 2, eq_ix3 i⟩
  have el : ∀ k : Fin 4096, lidx_main_v2 (ix3 b s o) k = ix3 b s k := fun k =>
    funext fun a => Fin.ext (by match a with | ⟨0, _⟩ => rfl | ⟨1, _⟩ => rfl | ⟨2, _⟩ => rfl)
  have er : ∀ k : Fin 4096, ridx_main_v2 (ix3 b s o) k = ix2 o k := fun k =>
    funext fun a => Fin.ext (by match a with | ⟨0, _⟩ => rfl | ⟨1, _⟩ => rfl)
  have eb : idx_main_v3 (idx_main_v4 (ix3 b s o)) = ix1 o :=
    funext fun a => Fin.ext (by match a with | ⟨0, _⟩ => rfl)
  rw [val_main_v5_apply, val_main_v2_apply, val_main_v4_apply, val_main_v3_apply]
  simp only [el, er, eb]
  rfl

end Cert.ReferenceIdeal.RefValue
end
-- ==== Proof.lean ====
/- A block-sparse linear layer, y[b, s, o] = Σ_d x[b, s, d] · (weight[o, d] · mask[o, d]) + bias[o], computed two ways.

   The kernel flattens x to [4096, 4096], forms the masked weight once on the host, and tiles the product 4 × 4 × 4:
   for each row tile and column tile it runs through the four tiles of the contraction, resetting an accumulator at
   the first, adding each tile's [1024, 1024] block product x · wᵀ, and at the last adding the bias row and storing the
   output block. The reference forms the same masked weight and contracts over all 4096 places at once, then adds the
   bias. Read on the extended reals the two changes of float format in the kernel are the identity, so the kernel's
   entry is ((((0 + P₀) + P₁) + P₂) + P₃) + bias with P_j the sum over the j-th run of 1024 places, and the
   reference's is the sum over all 4096 places plus bias. They are equal by regrouping one sum, which needs only that
   addition on the extended reals is commutative and associative with zero neutral: no finiteness of the inputs is
   used, and the precondition is never opened.

   The idealization rewrote nothing, so the kernel's idealized form is its own text and that claim is trivial. -/
import proofs.«174711_j17849884082261_2_alg».proof.Defs
import proofs.«174711_j17849884082261_2_alg».proof.Proof.Gen.Kernel
import proofs.«174711_j17849884082261_2_alg».proof.Proof.Gen.Kernel.Skeleton
import proofs.«174711_j17849884082261_2_alg».proof.Proof.Gen.Kernel.Launch
import proofs.«174711_j17849884082261_2_alg».proof.Proof.Gen.Kernel.Points
import proofs.«174711_j17849884082261_2_alg».proof.Proof.Gen.Kernel.Frame
import proofs.«174711_j17849884082261_2_alg».proof.Proof.Gen.KernelIdeal
import proofs.«174711_j17849884082261_2_alg».proof.Proof.Gen.KernelIdeal.Skeleton
import proofs.«174711_j17849884082261_2_alg».proof.Proof.Gen.KernelIdeal.Launch
import proofs.«174711_j17849884082261_2_alg».proof.Proof.Gen.KernelIdeal.Points
import proofs.«174711_j17849884082261_2_alg».proof.Proof.Gen.KernelIdeal.Frame
import proofs.«174711_j17849884082261_2_alg».proof.Proof.Gen.ReferenceIdeal
import proofs.«174711_j17849884082261_2_alg».proof.Proof.Gen.ReferenceIdeal.Run
import proofs.«174711_j17849884082261_2_alg».proof.Proof.Gen.ReferenceIdeal.Read
import proofs.«174711_j17849884082261_2_alg».proof.Proof.Gen.Pre_finite_inputs
import proofs.«174711_j17849884082261_2_alg».proof.Proof.KernelValue
import proofs.«174711_j17849884082261_2_alg».proof.Proof.RefValue
import Idealize.ShloMosaic.Adequacy
import Idealize.ShloMosaic.Init

noncomputable section

namespace Cert.Proof

open Idealize.ShloMosaic Idealize.SL.Sem

/-- The kernel as printed runs to the end and leaves its arguments alone. -/
theorem frame_k : Cert.frame_Kernel := fun m ρ _ => Cert.Kernel.Gen.frame m ρ

/-- So does its idealized form. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the layer of the arguments in their result buffer: the kernel's four accumulated tile
    products regroup into the reference's one sum. -/
theorem algebraic : Cert.algebraic_KernelIdeal_ReferenceIdeal := by
  intro m ρ m' ρ' _ hagree
  refine ⟨fun c => Cert.Spec.Y (m ((c.tc : Thread Cert.KernelIdeal.nD Cert.KernelIdeal.τ).loc Cert.KernelIdeal.main_arg0)) (mulf (F := Ideal) (m ((c.tc : Thread Cert.KernelIdeal.nD Cert.KernelIdeal.τ).loc Cert.KernelIdeal.main_arg1)) (uitofp (F := Ideal) .f32 (m ((c.tc : Thread Cert.KernelIdeal.nD Cert.KernelIdeal.τ).loc Cert.KernelIdeal.main_arg3))) : FVec Ideal Cert.KernelIdeal.S4096x4096 .f32) (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v5_eq, Cert.ReferenceIdeal.RefValue.ref_eq, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
